-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S5000x128 : Shape := ⟨2, ![5000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x64 : Shape := ⟨2, ![100000, 64]⟩
abbrev S5000x64 : Shape := ⟨2, ![5000, 64]⟩
abbrev S1x128 : Shape := ⟨2, ![1, 128]⟩
abbrev S1x64 : Shape := ⟨2, ![1, 64]⟩

abbrev nBuf : Space → Nat
  | .hbm => 64
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  A graph-convolution layer followed by a linear classifier, as functions of arrays on the extended reals,
  index by index. With h = x · W (a 100000×128 matrix of node features against a 128×128 weight),
  agg = the normalised neighbourhood sum of h's rows (a function of h and the edge list that this file
  does not open: both programs compute it by the same operations), the result is
      out = relu (agg + b) · Wc + bc,
  a 100000×64 matrix. Two of the three steps are matrix products, and a matrix product's entry (r, c)
  is the sum over the contracted axis of row r against column c; how the rows are tiled, and whether the
  product is spelt as an accumulation into zero or as one contraction, does not change that sum.
-/
import Idealize.ShloMosaic.PureOps.Ideal
import Idealize.ShloMosaic.Lib.ValueIdx

noncomputable section

namespace Cert.Gcn

open Idealize.ShloMosaic Idealize.ShloMosaic.ValueIdx

/-- Entry (r, c) of x · W: the sum over k of x[r, k] · W[k, c]. -/
def proj (x : (⟨2, ![100000, 128]⟩ : Shape).Idx → EReal) (W : (⟨2, ![128, 128]⟩ : Shape).Idx → EReal) :
    (⟨2, ![100000, 128]⟩ : Shape).Idx → EReal :=
  fun i => ∑ k : Fin 128, x (ix2 (i 0) k) * W (ix2 k (i 1))

/-- Entry (r, c) of relu (agg + b) · Wc + bc: the sum over k of max (agg[r, k] + b[k], 0) · Wc[k, c], plus bc[c].
    The zero is kept as the float word both programs write. -/
def classify (agg : (⟨2, ![100000, 128]⟩ : Shape).Idx → EReal) (b : (⟨1, ![128]⟩ : Shape).Idx → EReal)
    (Wc : (⟨2, ![128, 64]⟩ : Shape).Idx → EReal) (bc : (⟨1, ![64]⟩ : Shape).Idx → EReal) :
    (⟨2, ![100000, 64]⟩ : Shape).Idx → EReal :=
  fun i => (∑ k : Fin 128, max (agg (ix2 (i 0) k) + b (ix1 k)) (Ideal.ofBits .f32 0x00000000#32) * Wc (ix2 k (i 1)))
    + bc (ix1 (i 1))

/-- `proj` at explicit coordinates. -/
theorem proj_apply (x : (⟨2, ![100000, 128]⟩ : Shape).Idx → EReal) (W : (⟨2, ![128, 128]⟩ : Shape).Idx → EReal)
    (r : Fin 100000) (c : Fin 128) : proj x W (ix2 r c) = ∑ k : Fin 128, x (ix2 r k) * W (ix2 k c) := rfl

/-- `classify` at explicit coordinates. -/
theorem classify_apply (agg : (⟨2, ![100000, 128]⟩ : Shape).Idx → EReal) (b : (⟨1, ![128]⟩ : Shape).Idx → EReal)
    (Wc : (⟨2, ![128, 64]⟩ : Shape).Idx → EReal) (bc : (⟨1, ![64]⟩ : Shape).Idx → EReal) (r : Fin 100000) (c : Fin 64) :
    classify agg b Wc bc (ix2 r c)
      = (∑ k : Fin 128, max (agg (ix2 r k) + b (ix1 k)) (Ideal.ofBits .f32 0x00000000#32) * Wc (ix2 k c)) + bc (ix1 c) := rfl

end Cert.Gcn

end
-- ==== Proof.RefValue.lean ====
/-
  The reference program's result as the layer's three functions composed. Its run ends with the result array at
  a term of the arguments; read one operation at a time, that term is
      out = classify (mid (proj x W) e) b Wc bc,
  where `proj x W` is the first matrix product, entry by entry a sum over the contracted axis; `mid h e` is the
  normalised neighbourhood sum of the rows of `h` along the edge list `e` (degrees, their inverse square roots,
  gather, scale, scatter-add), taken here as ONE function of `h` and `e` and never opened, since the kernel's
  program applies the very same operations to its own `h`; and `classify` adds the bias, clamps at zero, takes
  the second matrix product and adds the second bias. The reference broadcasts each bias vector in two steps
  (to one row, then down the rows); read at an index both steps only select the column's entry.
-/
import proofs.«162498_j48936857370859_1_alg».proof.Proof.RefReadP
import proofs.«162498_j48936857370859_1_alg».proof.Proof.Spec
import Idealize.ShloMosaic.Lib.ValueIdx

noncomputable section

namespace Cert.Gcn.Ref

open Cert.ReferenceIdeal Cert.ReferenceIdeal.ReadP Idealize.ShloMosaic Idealize.ShloMosaic.ValueIdx

/-- The neighbourhood aggregation as one function of the projected features `h` and the edge list `e`:
    each message is row src(j) of `h` scaled by the two endpoints' normalisation, and the messages are
    summed into their destination rows. Every stage but the gather of `h` depends on `e` alone. -/
def mid (h : FVec Ideal S100000x128 .f32) (e : (⟨S2x1600000, .i32⟩ : BufTy).Contents (Elt Ideal)) :
    FVec Ideal S100000x128 .f32 :=
  Host.scatterAdd (F := Ideal) (φ := .f32) scatter_S100000x128_S1700000x1_S1700000x128_1_0_0_1 (val_main_v41 (F := Ideal)) (val_main_v42 (F := Ideal) e)
    (mulf (F := Ideal) (φ := .f32) (Host.gather gather_S100000x128_S1700000x1_S1700000x128_1_0_n_n_0_1_1128 h (val_main_v36 (F := Ideal) e))
      (val_main_v39 (F := Ideal) e))

/-- The reference's first product is `proj`: its entry (r, c) is the sum over k of x[r, k] · W[k, c]. -/
theorem proj_eq (x0 : (⟨S100000x128, .f32⟩ : BufTy).Contents (Elt Ideal)) (x2 : (⟨S128x128, .f32⟩ : BufTy).Contents (Elt Ideal)) :
    val_main_v4 (F := Ideal) x0 x2 = Cert.Gcn.proj x0 x2 := by
  funext i
  obtain ⟨r, c, rfl⟩ : ∃ (r : Fin 100000) (c : Fin 128), i = ix2 r c := ⟨i 0, i 1, eq_ix2 i⟩
  rw [val_main_v4_apply, Cert.Gcn.proj_apply]
  refine Finset.sum_congr rfl fun k _ => ?_
  have el : lidx_main_v4 (ix2 r c) k = ix2 r k := funext fun a => match a with | ⟨0, _⟩ => rfl | ⟨1, _⟩ => rfl
  have er : ridx_main_v4 (ix2 r c) k = ix2 k c := funext fun a => match a with | ⟨0, _⟩ => rfl | ⟨1, _⟩ => rfl
  rw [el, er]

/-- The aggregated features depend on x and W only through their product: the stages between the product and the
    scatter-add, unfolded, are `mid` of the product. -/
theorem agg_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v43 (F := Ideal) x0 x1 x2 = mid (val_main_v4 (F := Ideal) x0 x2) x1 := by
  unfold val_main_v43 val_main_v40 val_main_v37 mid
  rfl

/-- The clamped, biased features at (r, k): max (agg[r, k] + b[k], 0). -/
theorem relu_stage (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (r : Fin 100000) (k : Fin 128) :
    val_main_v47 (F := Ideal) x0 x1 x2 x3 (ix2 r k)
      = max (val_main_v43 (F := Ideal) x0 x1 x2 (ix2 r k) + x3 (ix1 k)) (Ideal.ofBits .f32 0x00000000#32) := by
  rw [val_main_v47_apply, val_main_v46_apply, val_main_v45_apply, val_main_v44_apply, val_main_call1_v0_apply,
    val_main_call1_cst_apply]
  have e : idx_main_v44 (idx_main_v45 (ix2 r k)) = ix1 k := funext fun a => match a with | ⟨0, _⟩ => rfl
  rw [e]
  rfl

/-- The reference's result, entry by entry, is the layer's three functions composed. -/
theorem out_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v51 (F := Ideal) x0 x1 x2 x3 x4 x5 = Cert.Gcn.classify (mid (Cert.Gcn.proj x0 x2) x1) x3 x4 x5 := by
  funext i
  obtain ⟨r, c, rfl⟩ : ∃ (r : Fin 100000) (c : Fin 64), i = ix2 r c := ⟨i 0, i 1, eq_ix2 i⟩
  rw [val_main_v51_apply, val_main_v48_apply, val_main_v50_apply, val_main_v49_apply, Cert.Gcn.classify_apply]
  have e5 : idx_main_v49 (idx_main_v50 (ix2 r c)) = ix1 c := funext fun a => match a with | ⟨0, _⟩ => rfl
  rw [e5]
  refine congrArg (· + x5 (ix1 c)) (Finset.sum_congr rfl fun k _ => ?_)
  have el : lidx_main_v48 (ix2 r c) k = ix2 r k := funext fun a => match a with | ⟨0, _⟩ => rfl | ⟨1, _⟩ => rfl
  have er : ridx_main_v48 (ix2 r c) k = ix2 k c := funext fun a => match a with | ⟨0, _⟩ => rfl | ⟨1, _⟩ => rfl
  rw [el, er, relu_stage, agg_eq, proj_eq]

end Cert.Gcn.Ref

end
-- ==== Proof.KRun.lean ====
/-
  The kernel program's run with its result array named. The program is six segments in order: a stretch of host
  operations (the edge list cut into its source and destination rows), the first region (the projection), three stretches
  of host operations (the neighbourhood aggregation), and the second region (the classifier). Every weakly fair execution
  runs through them in that order, terminates and faults nowhere; at the end each buffer outside the scoped memories
  holds what the last segment boundary's contents say. Read at the six argument arrays that is their launch contents;
  read at the result array it is the last boundary's contents there, which the later modules compute.
-/
import proofs.«162498_j48936857370859_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents of
    the last segment boundary and the six argument arrays as launched. -/
theorem run_out : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunOut

end
-- ==== Proof.KPayload.lean ====
/-
  What each kernel body stores, read at an entry of its block, on the extended reals.
  The first body multiplies its 5000-row block of x by the whole of W: entry (p, q) of what it stores is the sum
  over k of x_blk[p, k] · W[k, q]. The second adds the bias row to its 5000-row block of the aggregated
  features, clamps at zero, multiplies by the whole of Wc and adds the second bias row: entry (p, q) is the sum over
  k of max (agg_blk[p, k] + b[k], 0) · Wc[k, q], plus bc[q]. A change of float format is the identity here, a matrix
  product accumulated into a zero block is the plain sum over the contracted axis, and a bias vector cast to one
  row and repeated down the rows reads, at any row, the vector's entry at the column.
-/
import proofs.«162498_j48936857370859_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Gcn.Kernel

open Cert.KernelIdeal Cert.KernelIdeal.Gen Idealize.ShloMosaic Idealize.ShloMosaic.ValueIdx

/-- The first product's dimensions on a block: [5000,128] × [128,128], axis 1 against axis 0. -/
abbrev D0 : DotDims S5000x128 S128x128 S5000x128 := dot_S5000x128_S128x128_S5000x128_1_0_0_1_n_n
/-- The second product's dimensions on a block: [5000,128] × [128,64], axis 1 against axis 0. -/
abbrev D1 : DotDims S5000x128 S128x64 S5000x64 := dot_S5000x128_S128x64_S5000x64_1_0_0_1_n_n

/-! ## Where a product's operands are read: row of the left, column of the right, the contracted coordinate shared -/

theorem D0_lhs_0 (i : S5000x128.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem D0_lhs_1 (i : S5000x128.Idx) (q : D0.contr.Idx) : (D0.lhsIdx i q 1).val = (q ⟨0, by decide⟩).val :=
  D0.lhsIdx_val_of_single rfl i q
theorem D0_rhs_0 (i : S5000x128.Idx) (q : D0.contr.Idx) : (D0.rhsIdx i q 0).val = (q ⟨0, by decide⟩).val :=
  D0.rhsIdx_val_of_single rfl i q
theorem D0_rhs_1 (i : S5000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

theorem D1_lhs_0 (i : S5000x64.Idx) (q : D1.contr.Idx) : (D1.lhsIdx i q 0).val = (i 0).val := by
  unfold DotDims.lhsIdx
  rw [dif_neg (show ¬(0 : Fin S5000x128.rank) ∈ D1.lhsBatch by decide), dif_pos (show (0 : Fin S5000x128.rank) ∈ D1.lhsNonContracting by decide)]
  rfl
theorem D1_lhs_1 (i : S5000x64.Idx) (q : D1.contr.Idx) : (D1.lhsIdx i q 1).val = (q ⟨0, by decide⟩).val :=
  D1.lhsIdx_val_of_single rfl i q
theorem D1_rhs_0 (i : S5000x64.Idx) (q : D1.contr.Idx) : (D1.rhsIdx i q 0).val = (q ⟨0, by decide⟩).val :=
  D1.rhsIdx_val_of_single rfl i q
theorem D1_rhs_1 (i : S5000x64.Idx) (q : D1.contr.Idx) : (D1.rhsIdx i q 1).val = (i 1).val := by
  unfold DotDims.rhsIdx
  rw [dif_neg (show ¬(1 : Fin S128x64.rank) ∈ D1.rhsBatch by decide), dif_pos (show (1 : Fin S128x64.rank) ∈ D1.rhsNonContracting by decide)]
  rfl

/-! ## The two products into a zero block, as sums -/

/-- A [5000,128] block times a [128,128] matrix, accumulated into zero: entry (p, q) is Σ_k l[p, k] · r[k, q]. -/
theorem matmul0_apply (l : FVec Ideal S5000x128 .bf16) (r : FVec Ideal S128x128 .bf16) (p : Fin 5000) (q : Fin 128) :
    matmul (F := Ideal) D0 none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact D0_lhs_0 _ _
    | ⟨1, _⟩ => exact (D0_lhs_1 _ _).trans hk)
  have er : D0.rhsIdx (ix2 p q) ((contrEquiv1 D0 128 rfl rfl).symm k) = ix2 k q := funext fun a => Fin.ext (by
    match a with
    | ⟨0, _⟩ => exact (D0_rhs_0 _ _).trans hk
    | ⟨1, _⟩ => exact D0_rhs_1 _ _)
  rw [el, er]

/-- A [5000,128] block times a [128,64] matrix, accumulated into zero: entry (p, q) is Σ_k l[p, k] · r[k, q]. -/
theorem matmul1_apply (l : FVec Ideal S5000x128 .bf16) (r : FVec Ideal S128x64 .bf16) (p : Fin 5000) (q : Fin 64) :
    matmul (F := Ideal) D1 none l r (constant (F := Ideal) S5000x64 .f32 0x00000000#32) (ix2 p q)
      = ∑ k : Fin 128, l (ix2 p k) * r (ix2 k q) := by
  simp only [matmul]
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 p q) ((contrEquiv1 D1 128 rfl rfl).symm k) = ix2 p k := funext fun a => Fin.ext (by
    match a with
    | ⟨0, _⟩ => exact D1_lhs_0 _ _
    | ⟨1, _⟩ => exact (D1_lhs_1 _ _).trans hk)
  have er : D1.rhsIdx (ix2 p q) ((contrEquiv1 D1 128 rfl rfl).symm k) = ix2 k q := funext fun a => Fin.ext (by
    match a with
    | ⟨0, _⟩ => exact (D1_rhs_0 _ _).trans hk
    | ⟨1, _⟩ => exact D1_rhs_1 _ _)
  rw [el, er]

/-! ## The two stored values -/

/-- What the projection body stores, at entry (p, q) of its block. -/
theorem proj_block (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact matmul0_apply _ _ p q

/-- A bias vector of 128 entries, cast to one row and repeated down 5000 rows, reads at (p, k) its entry k. -/
theorem biasRow128 (v : Vec Ideal S128 .f32) (p : Fin 5000) (k : Fin 128) :
    broadcastTo S5000x128 (shapeCast S1x128 v shapeCasts_S128_S1x128) broadcasts_S1x128_S5000x128 (ix2 p k) = v (ix1 k) :=
  (broadcastTo_1b_ab_apply _ _ p k).trans (shapeCast_a_1a_apply v _ 0 k)

/-- A bias vector of 64 entries, cast to one row and repeated down 5000 rows, reads at (p, q) its entry q. -/
theorem biasRow64 (v : Vec Ideal S64 .f32) (p : Fin 5000) (q : Fin 64) :
    broadcastTo S5000x64 (shapeCast S1x64 v shapeCasts_S64_S1x64) broadcasts_S1x64_S5000x64 (ix2 p q) = v (ix1 q) :=
  (broadcastTo_1b_ab_apply _ _ p q).trans (shapeCast_a_1a_apply v _ 0 q)

/-- What the classifier body stores, at entry (p, q) of its block. -/
theorem classify_block (x0 : Vec Ideal S5000x128 .f32) (x1 : Vec Ideal S128 .f32) (x2 : Vec Ideal S128x64 .f32)
    (x3 : Vec Ideal S64 .f32) (p : Fin 5000) (q : Fin 64) :
    k1_pay1 (F := Ideal) x0 x1 x2 x3 (ix2 p q)
      = (∑ k : Fin 128, max (x0 (ix2 p k) + x1 (ix1 k)) (Ideal.ofBits .f32 0x00000000#32) * x2 (ix2 k q)) + x3 (ix1 q) := by
  unfold k1_pay1
  refine (addf_apply _ _ _).trans ?_
  rw [biasRow64, matmul1_apply]
  refine congrArg (· + x3 (ix1 q)) (Finset.sum_congr rfl fun k _ => ?_)
  refine congrArg (· * x2 (ix2 k q)) ?_
  show max (shapeCast S5000x128 x0 shapeCasts_S5000x128_S5000x128 (ix2 p k)
      + broadcastTo S5000x128 (shapeCast S1x128 x1 shapeCasts_S128_S1x128) broadcasts_S1x128_S5000x128 (ix2 p k)) _ = _
  rw [shapeCast_self, biasRow128]
  rfl

end Cert.Gcn.Kernel

end
-- ==== Proof.Region0.lean ====
/-
  The first region's result array, as one function of the arrays it finds on entry.
  The region runs 20 grid points. Point t reads rows 5000·t … 5000·t + 4999 of x (all 128 columns) and the whole
  of W, and writes back rows 5000·t … 5000·t + 4999 of the result. What it writes is its block of x times W, so
  entry (p, q) of that block is the sum over k of x[5000·t + p, k] · W[k, q]: exactly block t of the whole product
  `proj x W`. The 20 blocks tile the 100000 rows (row r lies in block r / 5000), so after the run the result array
  is `proj x W` everywhere, whatever it held before.
-/
import proofs.«162498_j48936857370859_1_alg».proof.Proof.Gen.KernelIdeal.Frame
import proofs.«162498_j48936857370859_1_alg».proof.Proof.KPayload
import proofs.«162498_j48936857370859_1_alg».proof.Proof.Spec
import Idealize.ShloMosaic.Lib.Pipeline.Value

set_option maxRecDepth 16384

noncomputable section

namespace Cert.Gcn.Kernel

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The printed index maps of the first region, decided over its 20 points: the x window and the result window are
    at block row t, column block 0; the W window is always at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the projection body stores, at any entry of its block. -/
theorem proj_block_at (x0 : Vec Ideal S5000x128 .f32) (x1 : Vec Ideal S128x128 .f32) (y : S5000x128.Idx) :
    k0_pay1 (F := Ideal) x0 x1 y = ∑ k : Fin 128, x0 (ix2 (y 0) k) * x1 (ix2 k (y 1)) := by
  obtain ⟨p, q, rfl⟩ : ∃ (p : Fin 5000) (q : Fin 128), y = ix2 p q := ⟨y 0, y 1, eq_ix2 y⟩
  exact proj_block x0 x1 p q

/-- WHAT POINT t WRITES BACK is block t of `proj` of the x and W arrays as the region finds them. -/
theorem flushed0 (c : Dev nD) (t : Fin cfg0.N) :
    (dat0 V c).flushed 2 t
      = ((cfg0.win 2).blk t).view.read (Elt Ideal) (Cert.Gcn.proj (V c main_arg0) (V c main_arg2)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x128) zero2]
  obtain ⟨e0, e1, e2, e3, e4, e5⟩ := idx0 t
  funext j
  refine (proj_block_at (iblk0 V c 0 t) (iblk0 V c 1 t) j).trans ?_
  show _ = Cert.Gcn.proj (V c main_arg0) (V c main_arg2) (((cfg0.win 2).blk t).view.emb j)
  unfold Cert.Gcn.proj
  refine Finset.sum_congr rfl fun k _ => ?_
  have h0 : (iblk0 V c 0 t : S5000x128.Idx → EReal) (ix2 (j 0) k)
      = (V c main_arg0 : S100000x128.Idx → EReal) (ix2 ((((cfg0.win 2).blk t).view.emb j) 0) k) := by
    show (V c main_arg0 : S100000x128.Idx → EReal) (((cfg0.win 0).blk t).view.emb (ix2 (j 0) k)) = _
    refine congrArg (V c main_arg0 : S100000x128.Idx → EReal) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  have h1 : (iblk0 V c 1 t : S128x128.Idx → EReal) (ix2 k (j 1))
      = (V c main_arg2 : S128x128.Idx → EReal) (ix2 k ((((cfg0.win 2).blk t).view.emb j) 1)) := by
    show (V c main_arg2 : S128x128.Idx → EReal) (((cfg0.win 1).blk t).view.emb (ix2 k (j 1))) = _
    refine congrArg (V c main_arg2 : S128x128.Idx → EReal) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega
  exact congrArg₂ (· * ·) h0 h1

/-- An index of the result array is in point t's block iff each coordinate is in the block's range on its axis. -/
theorem mem_blk0 (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v4).slice (win0_2.rect t)).set ↔ _
  rw [View.set_slice_whole, Rect.mem_set_unit]
  exact Iff.rfl

/-- The 20 blocks of 5000 rows cover the 100000 rows: row r is in the block of point r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_2 _, ?_⟩
  rw [mem_blk0]
  obtain ⟨e0, e1, e2, e3, e4, e5⟩ := idx0 ⟨(i 0).val / 5000, ht⟩
  have e4' : win0_2.index ⟨(i 0).val / 5000, ht⟩ (0 : Fin 2) = (i 0).val / 5000 := e4
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4']; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- THE RESULT ARRAY of the first region after its run: the product of the x and W arrays it found. -/
theorem region0_value (c : Dev nD) :
    (dat0 V c).arrAt 2 cfg0.N = Cert.Gcn.proj (V c main_arg0) (V c main_arg2) :=
  (dat0 V c).arrAt_eq_of_cover 2 _ (fun t _ => flushed0 V c t) cover0

end Cert.Gcn.Kernel

end
-- ==== Proof.Region1.lean ====
/-
  The second region's result array, as one function of the arrays it finds on entry.
  The region runs 20 grid points. Point t reads rows 5000·t … 5000·t + 4999 of the aggregated features, and the whole of
  the bias b, of Wc and of the bias bc, and writes back rows 5000·t … 5000·t + 4999 of the result. Entry (p, q) of what it
  writes is the sum over k of max (agg[5000·t + p, k] + b[k], 0) · Wc[k, q], plus bc[q]: block t of `classify agg b Wc bc`.
  The 20 blocks tile the 100000 rows (row r lies in block r / 5000), so after the run the result array is
  `classify agg b Wc bc` everywhere.
-/
import proofs.«162498_j48936857370859_1_alg».proof.Proof.Gen.KernelIdeal.Frame
import proofs.«162498_j48936857370859_1_alg».proof.Proof.KPayload
import proofs.«162498_j48936857370859_1_alg».proof.Proof.Spec
import Idealize.ShloMosaic.Lib.Pipeline.Value

set_option maxRecDepth 16384

noncomputable section

namespace Cert.Gcn.Kernel

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2' : (![0, 0] : Fin 2 → Nat) = fun _ => 0 := funext fun a => by fin_cases a <;> rfl
theorem zero1 : (![0] : Fin 1 → Nat) = fun _ => 0 := funext fun a => by fin_cases a <;> rfl

/-- The printed index maps of the second region, decided over its 20 points: the aggregated-features window and the
    result window are at block row t, column block 0; the bias, Wc and second-bias windows are always at block 0. -/
theorem idx1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What the classifier body stores, at any entry of its block. -/
theorem classify_block_at (x0 : Vec Ideal S5000x128 .f32) (x1 : Vec Ideal S128 .f32) (x2 : Vec Ideal S128x64 .f32)
    (x3 : Vec Ideal S64 .f32) (y : S5000x64.Idx) :
    k1_pay1 (F := Ideal) x0 x1 x2 x3 y
      = (∑ k : Fin 128, max (x0 (ix2 (y 0) k) + x1 (ix1 k)) (Ideal.ofBits .f32 0x00000000#32) * x2 (ix2 k (y 1)))
        + x3 (ix1 (y 1)) := by
  obtain ⟨p, q, rfl⟩ : ∃ (p : Fin 5000) (q : Fin 64), y = ix2 p q := ⟨y 0, y 1, eq_ix2 y⟩
  exact classify_block x0 x1 x2 x3 p q

/-- WHAT POINT t WRITES BACK is block t of `classify` of the four arrays as the region finds them. -/
theorem flushed1 (c : Dev nD) (t : Fin cfg1.N) :
    (dat1 V c).flushed 4 t
      = ((cfg1.win 4).blk t).view.read (Elt Ideal)
          (Cert.Gcn.classify (V c main_v43) (V c main_arg3) (V c main_arg4) (V c main_arg5)) := by
  show (cfg1.win 4).cut (grid1.coords t) ((dat1 V c).after 4 t) = _
  rw [after1_4]
  unfold out1_4
  rw [View.canon_unit_zero zero2']
  simp only [View.ld_unit_zero (S := S5000x128) zero2', View.ld_unit_zero (S := S128x64) zero2',
    View.ld_unit_zero (S := S128) zero1, View.ld_unit_zero (S := S64) zero1]
  obtain ⟨e0, e1, e2, e3, e4, e5, e6, e7⟩ := idx1 t
  funext j
  refine (classify_block_at (iblk1 V c 0 t) (iblk1 V c 1 t) (iblk1 V c 2 t) (iblk1 V c 3 t) j).trans ?_
  show _ = Cert.Gcn.classify (V c main_v43) (V c main_arg3) (V c main_arg4) (V c main_arg5) (((cfg1.win 4).blk t).view.emb j)
  unfold Cert.Gcn.classify
  have h3 : (iblk1 V c 3 t : S64.Idx → EReal) (ix1 (j 1))
      = (V c main_arg5 : S64.Idx → EReal) (ix1 ((((cfg1.win 4).blk t).view.emb j) 1)) := by
    show (V c main_arg5 : S64.Idx → EReal) (((cfg1.win 3).blk t).view.emb (ix1 (j 1))) = _
    refine congrArg (V c main_arg5 : S64.Idx → EReal) (funext fun a => Fin.ext ?_)
    match a with
    | ⟨0, _⟩ =>
      show win1_3.index t (0 : Fin 1) * 64 + 1 * (j 1).val = win1_4.index t (1 : Fin 2) * 64 + 1 * (j 1).val
      omega
  refine congrArg₂ (· + ·) (Finset.sum_congr rfl fun k _ => ?_) h3
  have h0 : (iblk1 V c 0 t : S5000x128.Idx → EReal) (ix2 (j 0) k)
      = (V c main_v43 : S100000x128.Idx → EReal) (ix2 ((((cfg1.win 4).blk t).view.emb j) 0) k) := by
    show (V c main_v43 : S100000x128.Idx → EReal) (((cfg1.win 0).blk t).view.emb (ix2 (j 0) k)) = _
    refine congrArg (V c main_v43 : S100000x128.Idx → EReal) (funext fun a => Fin.ext ?_)
    match a with
    | ⟨0, _⟩ =>
      show win1_0.index t (0 : Fin 2) * 5000 + 1 * (j 0).val = win1_4.index t (0 : Fin 2) * 5000 + 1 * (j 0).val
      omega
    | ⟨1, _⟩ =>
      show win1_0.index t (1 : Fin 2) * 128 + 1 * k.val = k.val
      omega
  have h1 : (iblk1 V c 1 t : S128.Idx → EReal) (ix1 k) = (V c main_arg3 : S128.Idx → EReal) (ix1 k) := by
    show (V c main_arg3 : S128.Idx → EReal) (((cfg1.win 1).blk t).view.emb (ix1 k)) = _
    refine congrArg (V c main_arg3 : S128.Idx → EReal) (funext fun a => Fin.ext ?_)
    match a with
    | ⟨0, _⟩ =>
      show win1_1.index t (0 : Fin 1) * 128 + 1 * k.val = k.val
      omega
  have h2 : (iblk1 V c 2 t : S128x64.Idx → EReal) (ix2 k (j 1))
      = (V c main_arg4 : S128x64.Idx → EReal) (ix2 k ((((cfg1.win 4).blk t).view.emb j) 1)) := by
    show (V c main_arg4 : S128x64.Idx → EReal) (((cfg1.win 2).blk t).view.emb (ix2 k (j 1))) = _
    refine congrArg (V c main_arg4 : S128x64.Idx → EReal) (funext fun a => Fin.ext ?_)
    match a with
    | ⟨0, _⟩ =>
      show win1_2.index t (0 : Fin 2) * 128 + 1 * k.val = k.val
      omega
    | ⟨1, _⟩ =>
      show win1_2.index t (1 : Fin 2) * 64 + 1 * (j 1).val = win1_4.index t (1 : Fin 2) * 64 + 1 * (j 1).val
      omega
  rw [h0, h1, h2]

/-- An index of the result array is in point t's block iff each coordinate is in the block's range on its axis. -/
theorem mem_blk1 (t : Fin cfg1.N) (i : S100000x64.Idx) :
    i ∈ ((cfg1.win 4).blk t).view.set
      ↔ ∀ a : Fin 2, win1_4.index t a * S5000x64.size a ≤ (i a).val
          ∧ (i a).val < win1_4.index t a * S5000x64.size a + S5000x64.size a := by
  show i ∈ ((View.whole main_v44).slice (win1_4.rect t)).set ↔ _
  rw [View.set_slice_whole, Rect.mem_set_unit]
  exact Iff.rfl

/-- The 20 blocks of 5000 rows cover the 100000 rows: row r is in the block of point r / 5000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have ht : (i 0).val / 5000 < cfg1.N := by rw [hN]; omega
  refine ⟨⟨(i 0).val / 5000, ht⟩, flush1_4 _, ?_⟩
  rw [mem_blk1]
  obtain ⟨e0, e1, e2, e3, e4, e5, e6, e7⟩ := idx1 ⟨(i 0).val / 5000, ht⟩
  have e6' : win1_4.index ⟨(i 0).val / 5000, ht⟩ (0 : Fin 2) = (i 0).val / 5000 := e6
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e6']; omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [e7]; omega

/-- THE RESULT ARRAY of the second region after its run: `classify` of the four arrays it found. -/
theorem region1_value (c : Dev nD) :
    (dat1 V c).arrAt 4 cfg1.N
      = Cert.Gcn.classify (V c main_v43) (V c main_arg3) (V c main_arg4) (V c main_arg5) :=
  (dat1 V c).arrAt_eq_of_cover 4 _ (fun t _ => flushed1 V c t) cover1

end Cert.Gcn.Kernel

end
-- ==== Proof.KMiddle.lean ====
/-
  The middle of the kernel program, between its two regions, stretch by stretch: from the edge rows and the projected
  features to the aggregated features. Each stretch is read over an ARBITRARY assignment X of contents to the buffers, of
  which only the contents of the buffers the stretch reads are assumed: so nothing about the regions enters here.
    stretch 1: the self loops appended to the source and destination rows; the in-degrees (a scatter-add of ones along
               the destinations into zeros); whether each is positive; its inverse square root;
    stretch 2: the normalisation factor, the inverse square root where the degree is positive and zero elsewhere;
    stretch 3: negative indices wrapped, each endpoint's factor gathered, their product, the source row of the
               projected features gathered and scaled by it, and the scaled rows summed into their destination rows.
  Stage by stage these are the operations the reference applies, so the last stretch leaves `mid h e` where `h` is
  what it found in the projected features' array.
-/
import proofs.«162498_j48936857370859_1_alg».proof.Proof.Gen.KernelIdeal.Launch
import proofs.«162498_j48936857370859_1_alg».proof.Proof.RefValue
import Idealize.ShloMosaic.Lib.StableHlo.Run

set_option maxRecDepth 16384

noncomputable section

namespace Cert.Gcn.Kernel

open Cert.KernelIdeal Cert.KernelIdeal.Gen Idealize.ShloMosaic Idealize.ShloMosaic.TcCoe Idealize.ShloMosaic.StableHlo
open Cert.ReferenceIdeal.ReadP (val_main_v1 val_main_v3 val_main_v6 val_main_v7 val_main_v13 val_main_v14 val_main_cst_2 val_main_v15)

variable (X : Valuation τ sig (Elt Ideal)) (e : (⟨Cert.ReferenceIdeal.S2x1600000, .i32⟩ : BufTy).Contents (Elt Ideal))

/-! ## Stretch 1 -/

/-- The source row with the self loops appended. -/
theorem s1_src (h1 : X (Proc.devRef .tc main_v1) = val_main_v1 (F := Ideal) e) :
    StableHlo.after hostOps1 X (Proc.devRef .tc main_v6) = val_main_v6 (F := Ideal) e := by
  after_results_simp
  repeat (first
    | rw [nullary_result] | rw [binary_result]
    | (rw [nullary_result_ne]; rotate_left; decide)
    | (rw [binary_result_ne]; rotate_left; decide))
  rw [h1]
  rfl

/-- The destination row with the self loops appended. -/
theorem s1_dst (h3 : X (Proc.devRef .tc main_v3) = val_main_v3 (F := Ideal) e) :
    StableHlo.after hostOps1 X (Proc.devRef .tc main_v7) = val_main_v7 (F := Ideal) e := by
  after_results_simp
  repeat (first
    | rw [nullary_result] | rw [binary_result]
    | (rw [nullary_result_ne]; rotate_left; decide)
    | (rw [binary_result_ne]; rotate_left; decide))
  rw [h3]
  rfl

/-- Whether each in-degree is positive. -/
theorem s1_pos (h3 : X (Proc.devRef .tc main_v3) = val_main_v3 (F := Ideal) e) :
    StableHlo.after hostOps1 X (Proc.devRef .tc main_v13) = val_main_v13 (F := Ideal) e := by
  after_results_simp
  repeat (first
    | rw [nullary_result] | rw [binary_result]
    | (rw [nullary_result_ne]; rotate_left; decide)
    | (rw [binary_result_ne]; rotate_left; decide))
  rw [h3]
  rfl

/-- Each in-degree's inverse square root. -/
theorem s1_rsqrt (h3 : X (Proc.devRef .tc main_v3) = val_main_v3 (F := Ideal) e) :
    StableHlo.after hostOps1 X (Proc.devRef .tc main_v14) = val_main_v14 (F := Ideal) e := by
  after_results_simp
  repeat (first
    | rw [nullary_result] | rw [binary_result]
    | (rw [nullary_result_ne]; rotate_left; decide)
    | (rw [binary_result_ne]; rotate_left; decide))
  rw [h3]
  rfl

/-- The zero the factor takes where the degree is not positive. -/
theorem s1_zero : StableHlo.after hostOps1 X (Proc.devRef .tc main_cst_2) = val_main_cst_2 (F := Ideal) := by
  after_results_simp
  rfl

/-- The stretch does not write the projected features. -/
theorem s1_keep : StableHlo.after hostOps1 X (Proc.devRef .tc main_v4) = X (Proc.devRef .tc main_v4) := by
  after_results_simp

/-! ## Stretch 2 -/

/-- The normalisation factor of each node. -/
theorem s2_factor (h13 : X (Proc.devRef .tc main_v13) = val_main_v13 (F := Ideal) e)
    (h14 : X (Proc.devRef .tc main_v14) = val_main_v14 (F := Ideal) e)
    (hz : X (Proc.devRef .tc main_cst_2) = val_main_cst_2 (F := Ideal)) :
    StableHlo.after hostOps1_1 X (Proc.devRef .tc main_v15) = val_main_v15 (F := Ideal) e := by
  -- the outlined select's three operations are the plain ones on the same buffers: at a literal buffer, moving a value
  -- to the buffer's own type and back is the identity
  have hops : (hostOps1_1 : List (HloOp τ sig (Elt Ideal)))
      = [ StableHlo.unary main_cst_2 main_call0_v0
            (id : (⟨S_, .f32⟩ : BufTy).Contents (Elt Ideal) → (⟨S_, .f32⟩ : BufTy).Contents (Elt Ideal)),
          StableHlo.unary main_call0_v0 main_call0_v1
            (broadcastInDim S100000 ![] bcast_S_S100000 :
              (⟨S_, .f32⟩ : BufTy).Contents (Elt Ideal) → (⟨S100000, .f32⟩ : BufTy).Contents (Elt Ideal)),
          StableHlo.ternary main_v13 main_v14 main_call0_v1 main_v15
            (select : (⟨S100000, .i1⟩ : BufTy).Contents (Elt Ideal) → (⟨S100000, .f32⟩ : BufTy).Contents (Elt Ideal)
              → (⟨S100000, .f32⟩ : BufTy).Contents (Elt Ideal) → (⟨S100000, .f32⟩ : BufTy).Contents (Elt Ideal)) ] := rfl
  rw [hops]
  after_results_simp
  rw [h13, h14, hz]
  rfl

theorem s2_keep_src : StableHlo.after hostOps1_1 X (Proc.devRef .tc main_v6) = X (Proc.devRef .tc main_v6) := by
  after_results_simp
theorem s2_keep_dst : StableHlo.after hostOps1_1 X (Proc.devRef .tc main_v7) = X (Proc.devRef .tc main_v7) := by
  after_results_simp
theorem s2_keep : StableHlo.after hostOps1_1 X (Proc.devRef .tc main_v4) = X (Proc.devRef .tc main_v4) := by
  after_results_simp

/-! ## Stretch 3 -/

/-- The aggregated features: `mid` of the projected features the stretch found, and the edge list. -/
theorem s3_agg (h : FVec Ideal Cert.ReferenceIdeal.S100000x128 .f32)
    (h4 : X (Proc.devRef .tc main_v4) = h)
    (h6 : X (Proc.devRef .tc main_v6) = val_main_v6 (F := Ideal) e)
    (h7 : X (Proc.devRef .tc main_v7) = val_main_v7 (F := Ideal) e)
    (h15 : X (Proc.devRef .tc main_v15) = val_main_v15 (F := Ideal) e) :
    StableHlo.after hostOps1_2 X (Proc.devRef .tc main_v43) = Cert.Gcn.Ref.mid h e := by
  after_results_simp
  rw [h4, h6, h7, h15]
  rfl

end Cert.Gcn.Kernel

end
-- ==== Proof.KHost.lean ====
/-
  The kernel program's result array as the layer's three functions composed.
  Through the segment boundaries: the first stretch of host operations cuts the edge list into its source row and
  its destination row and touches nothing else, so the first region finds x and W as launched and leaves `proj x W`
  in its result array. The three middle stretches (the self loops appended, the degrees as a scatter-add of ones, their
  inverse square roots where positive, the two gathers of those, the gather of the projected rows, the scaling, the
  scatter-add) are the same operations the reference applies, on the same edge rows: what they leave in the aggregated
  features' array is `mid` of the first region's result and the edge list. No stretch and no region writes an argument
  array, so the second region finds the two biases and Wc as launched, and leaves
      classify (mid (proj x W) e) b Wc bc
  in the program's result array.
-/
import proofs.«162498_j48936857370859_1_alg».proof.Proof.Gen.KernelIdeal.Frame
import proofs.«162498_j48936857370859_1_alg».proof.Proof.Region0
import proofs.«162498_j48936857370859_1_alg».proof.Proof.Region1
import proofs.«162498_j48936857370859_1_alg».proof.Proof.RefValue
import proofs.«162498_j48936857370859_1_alg».proof.Proof.KMiddle
import Idealize.ShloMosaic.Lib.StableHlo.Run

set_option maxRecDepth 16384

noncomputable section

namespace Cert.Gcn.Kernel

open Cert.KernelIdeal Cert.KernelIdeal.Gen Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-! ## What the first stretch leaves: the edge list's two rows, the arguments untouched -/

/-- The source row of the edge list, flattened. -/
theorem src_row (c : Dev nD) :
    W1 m ρ c (Proc.devRef .tc main_v1)
      = Cert.ReferenceIdeal.ReadP.val_main_v1 (F := Ideal) (m ((c.tc : Thread nD τ).loc main_arg1)) := by
  show StableHlo.after hostOps0 (W0 m ρ c) (Proc.devRef .tc main_v1) = _
  after_results
  rfl

/-- The destination row of the edge list, flattened. -/
theorem dst_row (c : Dev nD) :
    W1 m ρ c (Proc.devRef .tc main_v3)
      = Cert.ReferenceIdeal.ReadP.val_main_v3 (F := Ideal) (m ((c.tc : Thread nD τ).loc main_arg1)) := by
  show StableHlo.after hostOps0 (W0 m ρ c) (Proc.devRef .tc main_v3) = _
  after_results
  rfl

/-- The first region finds x as launched. -/
theorem entry0_x (c : Dev nD) : V1 m ρ c main_arg0 = m ((c.tc : Thread nD τ).loc main_arg0) := by
  show StableHlo.after hostOps0 (W0 m ρ c) (Proc.devRef .tc main_arg0) = _
  after_results

/-- The first region finds W as launched. -/
theorem entry0_W (c : Dev nD) : V1 m ρ c main_arg2 = m ((c.tc : Thread nD τ).loc main_arg2) := by
  show StableHlo.after hostOps0 (W0 m ρ c) (Proc.devRef .tc main_arg2) = _
  after_results

/-! ## The projected features after the first region -/

/-- The first region leaves the product of x and W in its result array. -/
theorem projected (c : Dev nD) :
    W2 m ρ c (Proc.devRef .tc main_v4)
      = Cert.Gcn.proj (m ((c.tc : Thread nD τ).loc main_arg0)) (m ((c.tc : Thread nD τ).loc main_arg2)) :=
  (W2_arr m ρ c 2).trans ((region0_value (V1 m ρ) c).trans (by rw [entry0_x, entry0_W]))

/-! ## The aggregated features after the middle stretches -/

/-- What the middle stretches leave in the aggregated features' array: `mid` of the first region's result and the
    edge list, stretch by stretch: each stretch reads what the one before left. -/
theorem aggregated (c : Dev nD) :
    V5 m ρ c main_v43
      = Cert.Gcn.Ref.mid (W2 m ρ c (Proc.devRef .tc main_v4)) (m ((c.tc : Thread nD τ).loc main_arg1)) := by
  have e1 : W2 m ρ c (Proc.devRef .tc main_v1)
      = Cert.ReferenceIdeal.ReadP.val_main_v1 (F := Ideal) (m ((c.tc : Thread nD τ).loc main_arg1)) :=
    (W2_of_ne m ρ c main_v1 (by decide)).trans (src_row m ρ c)
  have e3 : W2 m ρ c (Proc.devRef .tc main_v3)
      = Cert.ReferenceIdeal.ReadP.val_main_v3 (F := Ideal) (m ((c.tc : Thread nD τ).loc main_arg1)) :=
    (W2_of_ne m ρ c main_v3 (by decide)).trans (dst_row m ρ c)
  -- stretch 1, from the first region's exit
  have a6 := s1_src (W2 m ρ c) (m ((c.tc : Thread nD τ).loc main_arg1)) e1
  have a7 := s1_dst (W2 m ρ c) (m ((c.tc : Thread nD τ).loc main_arg1)) e3
  have a13 := s1_pos (W2 m ρ c) (m ((c.tc : Thread nD τ).loc main_arg1)) e3
  have a14 := s1_rsqrt (W2 m ρ c) (m ((c.tc : Thread nD τ).loc main_arg1)) e3
  have az := s1_zero (W2 m ρ c)
  have a4 := s1_keep (W2 m ρ c)
  -- stretch 2, from stretch 1's exit
  have b15 := s2_factor (W3 m ρ c) (m ((c.tc : Thread nD τ).loc main_arg1)) a13 a14 az
  have b6 := (s2_keep_src (W3 m ρ c)).trans a6
  have b7 := (s2_keep_dst (W3 m ρ c)).trans a7
  have b4 := (s2_keep (W3 m ρ c)).trans a4
  -- stretch 3, from stretch 2's exit
  exact s3_agg (W4 m ρ c) (m ((c.tc : Thread nD τ).loc main_arg1)) _ b4 b6 b7 b15

/-! ## What the second region finds in the argument arrays it reads -/

/-- The second region finds the bias b as launched. -/
theorem entry1_b (c : Dev nD) : V5 m ρ c main_arg3 = m ((c.tc : Thread nD τ).loc main_arg3) :=
  ((W6_arr m ρ c 1).trans (((dat1 (V5 m ρ) c).arrAt_in 1 rfl _).trans (A_eq1 (V5 m ρ) c 1))).symm.trans (W6_main_arg3 m ρ c)

/-- The second region finds Wc as launched. -/
theorem entry1_Wc (c : Dev nD) : V5 m ρ c main_arg4 = m ((c.tc : Thread nD τ).loc main_arg4) :=
  ((W6_arr m ρ c 2).trans (((dat1 (V5 m ρ) c).arrAt_in 2 rfl _).trans (A_eq1 (V5 m ρ) c 2))).symm.trans (W6_main_arg4 m ρ c)

/-- The second region finds the bias bc as launched. -/
theorem entry1_bc (c : Dev nD) : V5 m ρ c main_arg5 = m ((c.tc : Thread nD τ).loc main_arg5) :=
  ((W6_arr m ρ c 3).trans (((dat1 (V5 m ρ) c).arrAt_in 3 rfl _).trans (A_eq1 (V5 m ρ) c 3))).symm.trans (W6_main_arg5 m ρ c)

/-! ## The result array -/

/-- THE RESULT ARRAY at the last segment boundary: the layer's three functions of the argument arrays, composed. -/
theorem result_value (c : Dev nD) :
    W6 m ρ c (Proc.devRef .tc main_v44)
      = Cert.Gcn.classify
          (Cert.Gcn.Ref.mid (Cert.Gcn.proj (m ((c.tc : Thread nD τ).loc main_arg0)) (m ((c.tc : Thread nD τ).loc main_arg2)))
            (m ((c.tc : Thread nD τ).loc main_arg1)))
          (m ((c.tc : Thread nD τ).loc main_arg3)) (m ((c.tc : Thread nD τ).loc main_arg4))
          (m ((c.tc : Thread nD τ).loc main_arg5)) :=
  (W6_arr m ρ c 4).trans ((region1_value (V5 m ρ) c).trans (by
    rw [aggregated, projected, entry1_b, entry1_Wc, entry1_bc]))

end Cert.Gcn.Kernel

end
-- ==== Proof.lean ====
/-
  A graph-convolution layer followed by a linear classifier, computed two ways, gives one result on the extended reals.

  Both programs take node features x (100000×128), an edge list e (2×1600000), a weight W (128×128), a bias b (128), a
  classifier weight Wc (128×64) and a bias bc (64), and return a 100000×64 array. Both form h = x · W; both then run the
  same host operations on h and e (self loops appended, in-degrees by a scatter-add of ones, their inverse square roots
  where positive, each edge's message the source row of h scaled by the two endpoints' factors, the messages summed
  into their destination rows) to get the aggregated features; both end with relu (agg + b) · Wc + bc.
  They differ in how the two matrix products and the clamp are carried out. The kernel program computes each product
  5000 rows at a time, rounding its operands to a shorter float format and accumulating into a block of zeros, and
  fuses the bias, the clamp and the second product in one pass over each block of rows; the reference takes each
  product as one contraction and broadcasts each bias in two steps. On the extended reals a change of format is the
  identity, a product accumulated into zero is the plain sum over the contracted axis, the 20 row blocks tile the
  100000 rows, and a bias broadcast either way reads the vector's entry at the column. So entry (r, c) of either
  result is
      Σ_k max (agg[r, k] + b[k], 0) · Wc[k, c] + bc[c],   agg = mid (x · W) e,   (x · W)[r, c] = Σ_k x[r, k] · W[k, c],
  with the same sums in the same order on both sides: no law of arithmetic beyond reading the two spellings of a
  product as that sum is used, and the finiteness of the inputs is never needed.

  The five conjuncts: each program runs, faults nowhere and leaves its arguments unchanged (the two kernel programs
  by their segment-by-segment runs, the reference by its run with the result dropped); the idealized kernel program is
  the printed one read at the extended reals with nothing rewritten, so there is nothing to preserve; and the two
  idealized programs, from memories that agree on the arguments, end with equal result arrays.
-/
import proofs.«162498_j48936857370859_1_alg».proof.Defs
import proofs.«162498_j48936857370859_1_alg».proof.Proof.Gen.Kernel
import proofs.«162498_j48936857370859_1_alg».proof.Proof.Gen.Kernel.Skeleton
import proofs.«162498_j48936857370859_1_alg».proof.Proof.Gen.Kernel.Launch
import proofs.«162498_j48936857370859_1_alg».proof.Proof.Gen.Kernel.Points
import proofs.«162498_j48936857370859_1_alg».proof.Proof.Gen.Kernel.Frame
import proofs.«162498_j48936857370859_1_alg».proof.Proof.Gen.KernelIdeal
import proofs.«162498_j48936857370859_1_alg».proof.Proof.Gen.KernelIdeal.Skeleton
import proofs.«162498_j48936857370859_1_alg».proof.Proof.Gen.KernelIdeal.Launch
import proofs.«162498_j48936857370859_1_alg».proof.Proof.Gen.KernelIdeal.Points
import proofs.«162498_j48936857370859_1_alg».proof.Proof.Gen.KernelIdeal.Frame
import proofs.«162498_j48936857370859_1_alg».proof.Proof.Gen.ReferenceIdeal
import proofs.«162498_j48936857370859_1_alg».proof.Proof.Gen.Pre_finite_inputs
import proofs.«162498_j48936857370859_1_alg».proof.Proof.RefRunP
import proofs.«162498_j48936857370859_1_alg».proof.Proof.RefReadP
import proofs.«162498_j48936857370859_1_alg».proof.Proof.RefValue
import proofs.«162498_j48936857370859_1_alg».proof.Proof.KRun
import proofs.«162498_j48936857370859_1_alg».proof.Proof.KHost
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- The kernel program read at the extended reals runs and leaves its arguments unchanged. -/
theorem frame_kernelIdeal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Nothing was rewritten on the way to the extended reals. -/
theorem preserves : Cert.preserves_Kernel_KernelIdeal := trivial

/-- From memories agreeing on the arguments both programs end with the result array at
    `classify (mid (proj x W) e) b Wc bc`: the kernel program's by the contents of its last segment boundary, the
    reference's by its run's term read one operation at a time. -/
theorem algebraic : Cert.algebraic_KernelIdeal_ReferenceIdeal := by
  intro m ρ m' ρ' _ hagree
  refine ⟨fun c => Cert.Gcn.classify
      (Cert.Gcn.Ref.mid
        (Cert.Gcn.proj (m ((c.tc : Thread Cert.KernelIdeal.nD Cert.KernelIdeal.τ).loc Cert.KernelIdeal.main_arg0))
          (m ((c.tc : Thread Cert.KernelIdeal.nD Cert.KernelIdeal.τ).loc Cert.KernelIdeal.main_arg2)))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.Kernel.result_value m ρ c), (h c).2⟩)
      (Cert.KernelIdeal.RunOut.run_out (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.ReadP.val_main_v51_eq, Cert.Gcn.Ref.out_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
